-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048 : Shape := ⟨2, ![512, 2048]⟩
abbrev S2048x2048 : Shape := ⟨2, ![2048, 2048]⟩
abbrev S2048 : Shape := ⟨1, ![2048]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S512x2048 .f32) (main_arg1 : FVec F S2048x2048 .f32) (main_arg2 : FVec F S2048 .f32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S512x2048 : Shape := ⟨2, ![512, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S1x256 : Shape := ⟨2, ![1, 256]⟩
abbrev S512x256 : Shape := ⟨2, ![512, 256]⟩

abbrev nBuf : Space → Nat
  | .hbm => 5
  | .vmem => 7
  | .smem => 0
  | _ => 0

abbrev bufTy : (tb : Table) → Fin (tcTables nBuf tb) → BufTy
  | .hbm, ⟨0, _⟩ => ⟨S512x2048, .f32⟩
  | .hbm, ⟨1, _⟩ => ⟨S2048x2048, .f32⟩
  | .hbm, ⟨2, _⟩ => ⟨S2048, .f32⟩
  | .hbm, ⟨3, _⟩ => ⟨S1x2048, .f32⟩
  | .hbm, ⟨4, _⟩ => ⟨S512x2048, .f32⟩
  | .local _ .vmem, ⟨0, _⟩ => ⟨S512x2048, .f32⟩
  | .local _ .vmem, ⟨1, _⟩ => ⟨S256x2048, .f32⟩
  | .local _ .vmem, ⟨2, _⟩ => ⟨S256x2048, .f32⟩
  | .local _ .vmem, ⟨3, _⟩ => ⟨S1x256, .f32⟩
  | .local _ .vmem, ⟨4, _⟩ => ⟨S1x256, .f32⟩
  | .local _ .vmem, ⟨5, _⟩ => ⟨S512x256, .f32⟩
  | .local _ .vmem, ⟨6, _⟩ => ⟨S512x256, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x2048_S256x2048_S512x256_1_1_0_0_n_n_wf : DotDims.WF S512x2048 S256x2048 S512x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S512x2048.size a
  hwx0_0 : ∀ i : grid0.Coords, EltTy.bits .f32 = 32 ∨ (Rect.block (s := S512x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .f32 = 32 ∨ (Rect.block (s := S2048x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x2048.size a
  hwx0_2 : ∀ i : grid0.Coords, EltTy.bits .f32 = 32 ∨ (Rect.block (s := S1x2048) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x2048.size a
  hwx0_3 : ∀ i : grid0.Coords, EltTy.bits .f32 = 32 ∨ (Rect.block (s := S512x2048) S512x256.size (cc0_transform_3 i) (hinb0_3 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf

abbrev win0_0 : Pipeline.Window sig grid0 :=
  Pipeline.Window.ofSpec (Memref.whole main_arg0) S512x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x2048 : Shape := ⟨2, ![512, 2048]⟩
abbrev S2048x2048 : Shape := ⟨2, ![2048, 2048]⟩
abbrev S2048 : Shape := ⟨1, ![2048]⟩
abbrev S_ : Shape := ⟨0, ![]⟩
abbrev S512x1 : Shape := ⟨2, ![512, 1]⟩
abbrev S512x2049 : Shape := ⟨2, ![512, 2049]⟩
abbrev S1x2048 : Shape := ⟨2, ![1, 2048]⟩
abbrev S2049x2048 : Shape := ⟨2, ![2049, 2048]⟩

abbrev nBuf : Space → Nat
  | .hbm => 38
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S512x1, .f32⟩
  | .hbm, ⟨5, _⟩ => ⟨S512x2049, .f32⟩
  | .hbm, ⟨6, _⟩ => ⟨S2048x2048, .f32⟩
  | .hbm, ⟨7, _⟩ => ⟨S1x2048, .f32⟩
  | .hbm, ⟨8, _⟩ => ⟨S2049x2048, .f32⟩
  | .hbm, ⟨9, _⟩ => ⟨S_, .f32⟩
  | .hbm, ⟨10, _⟩ => ⟨S512x2049, .f32⟩
  | .hbm, ⟨11, _⟩ => ⟨S512x2049, .f32⟩
  | .hbm, ⟨12, _⟩ => ⟨S2049x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2049x2048, .f32⟩
  | .hbm, ⟨20, _⟩ => ⟨S2049x2048, .f32⟩
  | .hbm, ⟨21, _⟩ => ⟨S_, .f32⟩
  | .hbm, ⟨22, _⟩ => ⟨S2049x2048, .f32⟩
  | .hbm, ⟨23, _⟩ => ⟨S2049x2048, .f32⟩
  | .hbm, ⟨24, _⟩ => ⟨S_, .f32⟩
  | .hbm, ⟨25, _⟩ => ⟨S2049x2048, .f32⟩
  | .hbm, ⟨26, _⟩ => ⟨S2049x2048, .f32⟩
  | .hbm, ⟨27, _⟩ => ⟨S_, .f32⟩
  | .hbm, ⟨28, _⟩ => ⟨S2049x2048, .f32⟩
  | .hbm, ⟨29, _⟩ => ⟨S2049x2048, .f32⟩
  | .hbm, ⟨30, _⟩ => ⟨S_, .f32⟩
  | .hbm, ⟨31, _⟩ => ⟨S2049x2048, .f32⟩
  | .hbm, ⟨32, _⟩ => ⟨S2049x2048, .f32⟩
  | .hbm, ⟨33, _⟩ => ⟨S512x2048, .f32⟩
  | .hbm, ⟨34, _⟩ => ⟨S512x2048, .f32⟩
  | .hbm, ⟨35, _⟩ => ⟨S512x2048, .f32⟩
  | .hbm, ⟨36, _⟩ => ⟨S512x2048, .f32⟩
  | .hbm, ⟨37, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_cst_5 : Ref sig .tc := ⟨.hbm, 24, rfl⟩
abbrev main_v15 : Ref sig .tc := ⟨.hbm, 25, rfl⟩
abbrev main_v16 : Ref sig .tc := ⟨.hbm, 26, rfl⟩
abbrev main_cst_6 : Ref sig .tc := ⟨.hbm, 27, rfl⟩
abbrev main_v17 : Ref sig .tc := ⟨.hbm, 28, rfl⟩
abbrev main_v18 : Ref sig .tc := ⟨.hbm, 29, rfl⟩
abbrev main_cst_7 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  bcast_S_S512x1 : S_.BroadcastsInDim S512x1 (![] : Fin 0 → Fin S512x1.rank)
  concatenates_S512x2048_S512x1_S512x2049_d1 : Shape.Concatenates [S512x2048, S512x1] S512x2049 1
  transposes_S2048x2048_S2048x2048_1_0 : S2048x2048.Transposes [1, 0] S2048x2048
  bcast_S2048_S1x2048_1 : S2048.BroadcastsInDim S1x2048 (![1] : Fin 1 → Fin S1x2048.rank)
  concatenates_S2048x2048_S1x2048_S2049x2048_d0 : Shape.Concatenates [S2048x2048, S1x2048] S2049x2048 0
  bcast_S_S512x2049 : S_.BroadcastsInDim S512x2049 (![] : Fin 0 → Fin S512x2049.rank)
  reducesTo_S2049x2048_S_d0_1 : S2049x2048.ReducesTo [0, 1] S_
  h_S_ : 0 < S_.numel
  bcast_S_S2049x2048 : S_.BroadcastsInDim S2049x2048 (![] : Fin 0 → Fin S2049x2048.rank)
  bcast_S_S512x2048 : S_.BroadcastsInDim S512x2048 (![] : Fin 0 → Fin S512x2048.rank)
  dot_S512x2049_S2049x2048_S512x2048_1_0_0_1_n_n_wf : DotDims.WF S512x2049 S2049x2048 S512x2048 [1] [0] [0] [1] [] []

variable [Facts₀]

def dot_S512x2049_S2049x2048_S512x2048_1_0_0_1_n_n : DotDims S512x2049 S2049x2048 S512x2048 where
  lhsContracting := [1]
  rhsContracting := [0]
  lhsNonContracting := [0]
  rhsNonContracting := [1]
  lhsBatch := []
  rhsBatch := []
  wf := dot_S512x2049_S2049x2048_S512x2048_1_0_0_1_n_n_wf

class Facts : Prop extends Facts₀ where

variable [Facts]
-- ==== Proof.RefEntry.lean ====
/-
  The reference's entry, read at an index.

  Write `in` for the activations with a column of ones appended (512 × 2049) and `wb` for the transposed weights with
  the bias row stacked underneath (2049 × 2048). With `H = ½`, `G` the conductance offset, and the scale
  `S = C / max |wb|`, the reference's entry at row `p` and output feature `q` is
  `((∑ k, (H · in(p,k)) · (G + max(S · wb(k,q), 0))) − (∑ k, (H · in(p,k)) · (G − min(S · wb(k,q), 0)))) / (H · S)`,
  both sums over the 2049 contracted coordinates.
-/
import proofs.«118814_j14525579395745_2_alg».proof.Proof.RefRead

noncomputable section

open scoped BigOperators

namespace Cert.ReferenceIdeal.Entry

open Cert.ReferenceIdeal Cert.ReferenceIdeal.ReadP Idealize.ShloMosaic Idealize.ShloMosaic.ValueIdx

/-- The one index of a scalar. -/
abbrev pt : S_.Idx := fun a => a.elim0

/-- The input scale `½`. -/
abbrev H : EReal := Ideal.ofBits .f32 0x3F000000#32
/-- The conductance offset. -/
abbrev G : EReal := Ideal.ofBits .f32 0x358637BD#32
/-- The conductance range. -/
abbrev C : EReal := Ideal.ofBits .f32 0x38CF9E38#32

/-- A scalar has one index. -/
theorem pt_eq (j : S_.Idx) : j = pt := funext fun a => a.elim0

/-- The conductance scale, the range over the largest `|wb|`, as the reference computes it. -/
theorem scale_at (x1 : FVec Ideal S2048x2048 .f32) (x2 : FVec Ideal S2048 .f32) (j : S_.Idx) :
    val_main_v9 (F := Ideal) x1 x2 j = Ideal.div C (val_main_v8 (F := Ideal) x1 x2 pt) := by
  rw [val_main_v9_apply, val_main_cst_2_apply, pt_eq j]
  simp only [Ideal.hostDivf_def, Ideal.ofBits_def]

/-- The scaled input: `H · in`. -/
theorem drive_at (x0 : FVec Ideal S512x2048 .f32) (j : S512x2049.Idx) :
    val_main_v6 (F := Ideal) x0 j = H * val_main_v1 (F := Ideal) x0 j := by
  rw [val_main_v6_apply, val_main_v5_apply, val_main_cst_0_apply]
  simp only [Ideal.mulf_def, Ideal.ofBits_def]

/-- The signed scaled weight: `S · wb`. -/
theorem signed_at (x1 : FVec Ideal S2048x2048 .f32) (x2 : FVec Ideal S2048 .f32) (j : S2049x2048.Idx) :
    val_main_v12 (F := Ideal) x1 x2 j
      = Ideal.div C (val_main_v8 (F := Ideal) x1 x2 pt) * val_main_v4 (F := Ideal) x1 x2 j := by
  rw [val_main_v12_apply, val_main_v11_apply, scale_at]
  simp only [Ideal.mulf_def]

/-- The positive conductance: `G + max(S · wb, 0)`. -/
theorem pos_at (x1 : FVec Ideal S2048x2048 .f32) (x2 : FVec Ideal S2048 .f32) (j : S2049x2048.Idx) :
    val_main_v16 (F := Ideal) x1 x2 j
      = G + max (Ideal.div C (val_main_v8 (F := Ideal) x1 x2 pt) * val_main_v4 (F := Ideal) x1 x2 j) 0 := by
  rw [val_main_v16_apply, val_main_v15_apply, val_main_cst_5_apply, val_main_v14_apply, val_main_v13_apply,
    val_main_cst_4_apply, signed_at]
  simp only [Ideal.addf_def, Ideal.maximumf_def, Ideal.ofBits_def, Ideal.ofBits_zero_f32]

/-- The negative conductance: `G − min(S · wb, 0)`. -/
theorem neg_at (x1 : FVec Ideal S2048x2048 .f32) (x2 : FVec Ideal S2048 .f32) (j : S2049x2048.Idx) :
    val_main_v20 (F := Ideal) x1 x2 j
      = G - min (Ideal.div C (val_main_v8 (F := Ideal) x1 x2 pt) * val_main_v4 (F := Ideal) x1 x2 j) 0 := by
  rw [val_main_v20_apply, val_main_v19_apply, val_main_cst_7_apply, val_main_v18_apply, val_main_v17_apply,
    val_main_cst_6_apply, signed_at]
  simp only [Ideal.subf_def, Ideal.minimumf_def, Ideal.ofBits_def, Ideal.ofBits_zero_f32]

/-- The divisor: `H · S`. -/
theorem divisor_at (x1 : FVec Ideal S2048x2048 .f32) (x2 : FVec Ideal S2048 .f32) (i : S512x2048.Idx) :
    val_main_v24 (F := Ideal) x1 x2 i = H * Ideal.div C (val_main_v8 (F := Ideal) x1 x2 pt) := by
  rw [val_main_v24_apply, val_main_v10_apply, val_main_cst_3_apply, scale_at]
  simp only [Ideal.mulf_def, Ideal.ofBits_def]

/-- The left factor of the contraction at output index (p, q) and contracted coordinate `k` sits at (p, k). -/
theorem lidx21 (p : Fin 512) (q : Fin 2048) (k : Fin 2049) : lidx_main_v21 (ix2 p q) k = ix2 p k :=
  funext fun a => Fin.ext (by match a with | ⟨0, _⟩ => rfl | ⟨1, _⟩ => rfl)
/-- The right factor sits at (k, q). -/
theorem ridx21 (p : Fin 512) (q : Fin 2048) (k : Fin 2049) : ridx_main_v21 (ix2 p q) k = ix2 k q :=
  funext fun a => Fin.ext (by match a with | ⟨0, _⟩ => rfl | ⟨1, _⟩ => rfl)
/-- The same for the second contraction. -/
theorem lidx22 (p : Fin 512) (q : Fin 2048) (k : Fin 2049) : lidx_main_v22 (ix2 p q) k = ix2 p k :=
  funext fun a => Fin.ext (by match a with | ⟨0, _⟩ => rfl | ⟨1, _⟩ => rfl)
theorem ridx22 (p : Fin 512) (q : Fin 2048) (k : Fin 2049) : ridx_main_v22 (ix2 p q) k = ix2 k q :=
  funext fun a => Fin.ext (by match a with | ⟨0, _⟩ => rfl | ⟨1, _⟩ => rfl)

/-- The current through the positive conductances. -/
theorem current_pos (x0 : FVec Ideal S512x2048 .f32) (x1 : FVec Ideal S2048x2048 .f32) (x2 : FVec Ideal S2048 .f32)
    (p : Fin 512) (q : Fin 2048) :
    val_main_v21 (F := Ideal) x0 x1 x2 (ix2 p q)
      = ∑ k : Fin 2049, (H * val_main_v1 (F := Ideal) x0 (ix2 p k))
          * (G + max (Ideal.div C (val_main_v8 (F := Ideal) x1 x2 pt) * val_main_v4 (F := Ideal) x1 x2 (ix2 k q)) 0) := by
  rw [val_main_v21_apply]
  refine Finset.sum_congr rfl fun k _ => ?_
  rw [lidx21, ridx21, drive_at, pos_at]

/-- The current through the negative conductances. -/
theorem current_neg (x0 : FVec Ideal S512x2048 .f32) (x1 : FVec Ideal S2048x2048 .f32) (x2 : FVec Ideal S2048 .f32)
    (p : Fin 512) (q : Fin 2048) :
    val_main_v22 (F := Ideal) x0 x1 x2 (ix2 p q)
      = ∑ k : Fin 2049, (H * val_main_v1 (F := Ideal) x0 (ix2 p k))
          * (G - min (Ideal.div C (val_main_v8 (F := Ideal) x1 x2 pt) * val_main_v4 (F := Ideal) x1 x2 (ix2 k q)) 0) := by
  rw [val_main_v22_apply]
  refine Finset.sum_congr rfl fun k _ => ?_
  rw [lidx22, ridx22, drive_at, neg_at]

/-- THE ENTRY's shape: the difference of the two currents over `H · S`. -/
theorem entry_shape (x0 : FVec Ideal S512x2048 .f32) (x1 : FVec Ideal S2048x2048 .f32) (x2 : FVec Ideal S2048 .f32)
    (p : Fin 512) (q : Fin 2048) :
    val_main_v25 (F := Ideal) x0 x1 x2 (ix2 p q)
      = Ideal.div
          ((∑ k : Fin 2049, (H * val_main_v1 (F := Ideal) x0 (ix2 p k))
              * (G + max (Ideal.div C (val_main_v8 (F := Ideal) x1 x2 pt) * val_main_v4 (F := Ideal) x1 x2 (ix2 k q)) 0))
            - ∑ k : Fin 2049, (H * val_main_v1 (F := Ideal) x0 (ix2 p k))
              * (G - min (Ideal.div C (val_main_v8 (F := Ideal) x1 x2 pt) * val_main_v4 (F := Ideal) x1 x2 (ix2 k q)) 0))
          (H * Ideal.div C (val_main_v8 (F := Ideal) x1 x2 pt)) := by
  rw [val_main_v25_apply, val_main_v23_apply, current_pos, current_neg, divisor_at]
  simp only [Ideal.hostDivf_def, Ideal.subf_def]

end Cert.ReferenceIdeal.Entry

end
-- ==== Proof.LibERealCoe.lean ====
/-
  Pushing the coercion of the reals into the extended reals through finite sums, maxima and minima.

  The coercion ℝ → [-∞, +∞] is an additive map and strictly monotone, so it commutes with a finite sum and with the
  maximum and the minimum of two reals. With these an identity between extended-real expressions whose entries are
  all (coercions of) reals is the coercion of the same identity over ℝ, where distributivity and cancellation hold.
-/
import Mathlib.Data.EReal.Operations
import Mathlib.Algebra.BigOperators.Group.Finset.Basic

open scoped BigOperators

namespace Cert.Spec

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the larger of two reals is the larger of the coercions. -/
theorem coe_max (a b : ℝ) : ((max a b : ℝ) : EReal) = max (a : EReal) (b : EReal) :=
  EReal.coe_strictMono.monotone.map_max

/-- The coercion of the smaller of two reals is the smaller of the coercions. -/
theorem coe_min (a b : ℝ) : ((min a b : ℝ) : EReal) = min (a : EReal) (b : EReal) :=
  EReal.coe_strictMono.monotone.map_min

/-- A finite sum of extended reals that are all reals is a real. -/
theorem sum_real {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl fun i _ => hg i⟩

end Cert.Spec
-- ==== Proof.Cancel.lean ====
/-
  The conductance model cancels.

  The reference maps a signed weight `e = s · w` to a pair of conductances `g + max(e, 0)` and `g − min(e, 0)`,
  drives both with the scaled inputs `h · x`, subtracts the two currents and divides by `h · s`. Because
  `max(e, 0) + min(e, 0) = e`, the offset `g` drops out of the difference and what is left is
  `h · s · ∑ x · w`; divided by `h · s` this is the plain contraction `∑ x · w`. On the extended reals this needs
  every entry to be a real (the subtraction is distributed over the sum and `g` is cancelled) and `h · s` to be a
  nonzero real. The scale `s` is a positive constant divided by the largest `|w|`: a positive real when some `w` is
  nonzero. When every `w` is zero the quotient is `+∞`; then `s · w = ∞ · 0 = 0`, the two currents are the same real,
  their difference is `0`, and `0 / (h · ∞) = 0`, which is again `∑ x · 0`.
-/
import Idealize.ShloMosaic.PureOps.Ideal
import proofs.«118814_j14525579395745_2_alg».proof.Proof.LibERealCoe

noncomputable section

open scoped BigOperators

namespace Cert.Spec

open Idealize.ShloMosaic

/-- Over the reals, with a nonzero real scale: the difference of the two currents over `h · s` is the contraction. -/
theorem cancel_real {n : ℕ} (X W : Fin n → ℝ) (h g s : ℝ) (hh : h ≠ 0) (hs : s ≠ 0) :
    Ideal.div
        ((∑ k, ((h : EReal) * (X k : EReal)) * ((g : EReal) + max ((s : EReal) * (W k : EReal)) 0))
          - ∑ k, ((h : EReal) * (X k : EReal)) * ((g : EReal) - min ((s : EReal) * (W k : EReal)) 0))
        ((h : EReal) * (s : EReal))
      = ∑ k, (X k : EReal) * (W k : EReal) := by
  have e1 : ∀ k, ((h : EReal) * (X k : EReal)) * ((g : EReal) + max ((s : EReal) * (W k : EReal)) 0)
      = ((h * X k * (g + max (s * W k) 0) : ℝ) : EReal) := fun k => by
    rw [EReal.coe_mul, EReal.coe_mul, EReal.coe_add, coe_max, EReal.coe_mul, EReal.coe_zero]
  have e2 : ∀ k, ((h : EReal) * (X k : EReal)) * ((g : EReal) - min ((s : EReal) * (W k : EReal)) 0)
      = ((h * X k * (g - min (s * W k) 0) : ℝ) : EReal) := fun k => by
    rw [EReal.coe_mul, EReal.coe_mul, EReal.coe_sub, coe_min, EReal.coe_mul, EReal.coe_zero]
  have e3 : ∀ k, (X k : EReal) * (W k : EReal) = ((X k * W k : ℝ) : EReal) := fun k => (EReal.coe_mul _ _).symm
  simp only [e1, e2, e3]
  rw [← coe_sum, ← coe_sum, ← coe_sum, ← EReal.coe_sub, ← EReal.coe_mul, Ideal.div_coe (mul_ne_zero hh hs),
    ← EReal.coe_mul]
  refine congrArg _ ?_
  have term : ∀ k, h * X k * (g + max (s * W k) 0) - h * X k * (g - min (s * W k) 0) = (h * s) * (X k * W k) :=
    fun k => by linear_combination (h * X k) * (max_add_min (s * W k) 0)
  rw [← Finset.sum_sub_distrib]
  simp only [term]
  rw [← Finset.mul_sum]
  field_simp

/-- With the scale `+∞` and every weight zero: both currents are the same real, and the quotient is `0`. -/
theorem cancel_top {n : ℕ} (X : Fin n → ℝ) (h g : ℝ) (hh : 0 < h) :
    Ideal.div
        ((∑ k : Fin n, ((h : EReal) * (X k : EReal)) * ((g : EReal) + max ((⊤ : EReal) * 0) 0))
          - ∑ k : Fin n, ((h : EReal) * (X k : EReal)) * ((g : EReal) - min ((⊤ : EReal) * 0) 0))
        ((h : EReal) * ⊤)
      = 0 := by
  rw [mul_zero, max_self, min_self, add_zero, sub_zero]
  have e : ∀ k, ((h : EReal) * (X k : EReal)) * (g : EReal) = ((h * X k * g : ℝ) : EReal) := fun k => by
    rw [EReal.coe_mul, EReal.coe_mul]
  simp only [e]
  rw [← coe_sum, ← EReal.coe_sub, sub_self, EReal.coe_zero, EReal.coe_mul_top_of_pos hh]
  unfold Ideal.div
  rw [if_neg EReal.top_ne_zero, zero_mul]

/-- THE LAW, in the form the reference's entry takes: inputs `x` and weights `w` that are reals, a positive real
    `H`, a real `G`, and a scale `S` that is a positive real or — every weight being zero — `+∞`. -/
theorem cancel {n : ℕ} (x w : Fin n → EReal) (hx : ∀ k, ∃ r : ℝ, x k = (r : EReal)) (hw : ∀ k, ∃ r : ℝ, w k = (r : EReal))
    (H G S : EReal) (hH : ∃ h : ℝ, 0 < h ∧ H = (h : EReal)) (hG : ∃ g : ℝ, G = (g : EReal))
    (hS : (∃ s : ℝ, 0 < s ∧ S = (s : EReal)) ∨ (S = ⊤ ∧ ∀ k, w k = 0)) :
    Ideal.div
        ((∑ k, (H * x k) * (G + max (S * w k) 0)) - ∑ k, (H * x k) * (G - min (S * w k) 0))
        (H * S)
      = ∑ k, x k * w k := by
  obtain ⟨X, rfl⟩ : ∃ X : Fin n → ℝ, x = fun k => (X k : EReal) := by
    choose X hX using hx; exact ⟨X, funext hX⟩
  obtain ⟨h, hh, rfl⟩ := hH
  obtain ⟨g, rfl⟩ := hG
  rcases hS with ⟨s, hs, rfl⟩ | ⟨rfl, hz⟩
  · obtain ⟨W, rfl⟩ : ∃ W : Fin n → ℝ, w = fun k => (W k : EReal) := by
      choose W hW using hw; exact ⟨W, funext hW⟩
    exact cancel_real X W h g s hh.ne' hs.ne'
  · obtain rfl : w = fun _ => (0 : EReal) := funext hz
    simp only [mul_zero, Finset.sum_const_zero]
    have := cancel_top X h g hh
    simpa only [mul_zero] using this

/-- THE SCALE: a positive real `c` divided by the least upper bound `M` of the `|a i|`, the `a i` reals over a
    nonempty finite index set, is a positive real — or, when `M = 0`, it is `+∞` and every `a i` is `0`. -/
theorem scale_cases {ι : Type*} [Fintype ι] [Nonempty ι] (a : ι → EReal) (ha : ∀ i, ∃ r : ℝ, a i = (r : EReal))
    (M : EReal) (hM : ∀ u : EReal, M ≤ u ↔ ∀ i, max (a i) (-(a i)) ≤ u) (c : ℝ) (hc : 0 < c) :
    (∃ s : ℝ, 0 < s ∧ Ideal.div (c : EReal) M = (s : EReal)) ∨ (Ideal.div (c : EReal) M = ⊤ ∧ ∀ i, a i = 0) := by
  choose r hr using ha
  have habs : ∀ i, max (a i) (-(a i)) = ((|r i| : ℝ) : EReal) := fun i => by
    rw [hr i, ← EReal.coe_neg, ← coe_max]; rfl
  have hub : ∀ i, max (a i) (-(a i)) ≤ M := (hM M).mp le_rfl
  -- `M` is bounded above by the real `∑ |r i|` and below by `0`, hence a real
  have hle : M ≤ ((∑ i, |r i| : ℝ) : EReal) := (hM _).mpr fun i => by
    rw [habs i, EReal.coe_le_coe_iff]
    exact Finset.single_le_sum (f := fun i => |r i|) (fun j _ => abs_nonneg (r j)) (Finset.mem_univ i)
  obtain ⟨i0⟩ := ‹Nonempty ι›
  have h0 : (0 : EReal) ≤ M := le_trans (by rw [habs i0]; exact_mod_cast abs_nonneg (r i0)) (hub i0)
  have hne_top : M ≠ ⊤ := ne_top_of_le_ne_top (EReal.coe_ne_top _) hle
  have hne_bot : M ≠ ⊥ := ne_bot_of_le_ne_bot (by simp) h0
  obtain ⟨μ, rfl⟩ : ∃ μ : ℝ, M = (μ : EReal) := ⟨M.toReal, (EReal.coe_toReal hne_top hne_bot).symm⟩
  have hμ0 : 0 ≤ μ := by exact_mod_cast h0
  rcases hμ0.eq_or_lt with hz | hpos
  · right
    subst hz
    refine ⟨?_, fun i => ?_⟩
    · unfold Ideal.div
      rw [EReal.coe_zero, if_pos rfl, if_pos (by exact_mod_cast hc)]
    · have := hub i
      rw [habs i, EReal.coe_zero, ← EReal.coe_zero, EReal.coe_le_coe_iff] at this
      rw [hr i, abs_nonpos_iff.mp this, EReal.coe_zero]
  · left
    refine ⟨c * (1 / μ), by positivity, ?_⟩
    rw [Ideal.div_coe hpos.ne', ← EReal.coe_mul]

end Cert.Spec

end
-- ==== Proof.Consts.lean ====
/-
  What the float literals of the reference denote as extended reals: a binary32 word whose exponent
  field `E` is neither zero nor all ones and whose sign bit is clear denotes the positive real
  `(2^23 + T) · 2^(E − 127 − 23)`, `T` its 23 fraction bits. One module states them all, so that the
  modules that use them unfold no bit pattern themselves.
-/
import Idealize.ShloMosaic.PureOps.Ideal

noncomputable section

namespace Cert.Consts

open Idealize.ShloMosaic

/-- `1.0` (exponent field 127, fraction 0) denotes `1`. -/
theorem one : Ideal.ofBits .f32 0x3F800000#32 = 1 := by
  simp [Ideal.ofBits, Ideal.ieee, -EReal.coe_mul]; norm_num

/-- `0.5` (exponent field 126, fraction 0) denotes a positive real, `2^23 · 2^(126 − 150) = 1/2`. -/
theorem half_pos : ∃ h : ℝ, 0 < h ∧ Ideal.ofBits .f32 0x3F000000#32 = (h : EReal) := by
  refine ⟨((2 ^ 23 + 0 : Nat) : ℝ) * (2 : ℝ) ^ ((126 : Int) - (2 ^ (8 - 1) - 1) - (23 : Nat)), by positivity, ?_⟩
  simp [Ideal.ofBits, Ideal.ieee, -EReal.coe_mul]

/-- The word `0x38CF9E38` (sign 0, exponent field 113, fraction 5217848) denotes a positive real,
    `(2^23 + 5217848) · 2^(113 − 150)`, about `9.9e-5`. -/
theorem gap_pos : ∃ c : ℝ, 0 < c ∧ Ideal.ofBits .f32 0x38CF9E38#32 = (c : EReal) := by
  refine ⟨((2 ^ 23 + 5217848 : Nat) : ℝ) * (2 : ℝ) ^ ((113 : Int) - (2 ^ (8 - 1) - 1) - (23 : Nat)), by positivity, ?_⟩
  simp [Ideal.ofBits, Ideal.ieee, -EReal.coe_mul]

/-- The word `0x358637BD` (sign 0, exponent field 107, fraction 407485) denotes a real,
    `(2^23 + 407485) · 2^(107 − 150)`, about `1e-6`. -/
theorem offset_real : ∃ g : ℝ, Ideal.ofBits .f32 0x358637BD#32 = (g : EReal) := by
  refine ⟨((2 ^ 23 + 407485 : Nat) : ℝ) * (2 : ℝ) ^ ((107 : Int) - (2 ^ (8 - 1) - 1) - (23 : Nat)), ?_⟩
  simp [Ideal.ofBits, Ideal.ieee, -EReal.coe_mul]

end Cert.Consts

end
-- ==== Proof.Linear.lean ====
/-
  The function both programs compute: a linear layer.

  For activations `x` (512 × 2048), weights `w` (2048 × 2048, one ROW per output feature) and a bias `b` (2048), the
  entry at row `p` and output feature `q` is `(∑ k < 2048, x(p,k) · w(q,k)) + b(q)`: the contraction runs over the
  second axis of both `x` and `w`.
-/
import Idealize.ShloMosaic.PureOps.Ideal
import Idealize.ShloMosaic.Lib.ValueIdx

noncomputable section

open scoped BigOperators

namespace Cert.Spec

open Idealize.ShloMosaic Idealize.ShloMosaic.ValueIdx

/-- The layer's entry at row `p` and output feature `q`. -/
def linearAt (x : (⟨2, ![512, 2048]⟩ : Shape).Idx → EReal) (w : (⟨2, ![2048, 2048]⟩ : Shape).Idx → EReal)
    (b : (⟨1, ![2048]⟩ : Shape).Idx → EReal) (p : Fin 512) (q : Fin 2048) : EReal :=
  (∑ k : Fin 2048, x (ix2 p k) * w (ix2 q k)) + b (ix1 q)

/-- The layer as one function of the three arrays, index by index. -/
def linear (x : (⟨2, ![512, 2048]⟩ : Shape).Idx → EReal) (w : (⟨2, ![2048, 2048]⟩ : Shape).Idx → EReal)
    (b : (⟨1, ![2048]⟩ : Shape).Idx → EReal) : (⟨2, ![512, 2048]⟩ : Shape).Idx → EReal :=
  fun i => linearAt x w b ⟨(i 0).val, (i 0).isLt⟩ ⟨(i 1).val, (i 1).isLt⟩

/-- At the index built from the coordinates `p`, `q` the layer is its entry there. -/
theorem linear_ix2 (x : (⟨2, ![512, 2048]⟩ : Shape).Idx → EReal) (w : (⟨2, ![2048, 2048]⟩ : Shape).Idx → EReal)
    (b : (⟨1, ![2048]⟩ : Shape).Idx → EReal) (p : Fin 512) (q : Fin 2048) :
    linear x w b (ix2 p q) = linearAt x w b p q := rfl

end Cert.Spec

end
-- ==== Proof.LibSumSplit.lean ====
/-
  Regrouping a contraction over a concatenated feature axis.

  A row of a product `cat · W`, where `cat = [a | b | c]` is a concatenation along the feature axis, is
  `∑ k, cat(i,k) * W(k,j)`.  Splitting the index range at the piece boundaries gives the sum of the
  pieces' own products against the matching row blocks of `W`:
  `(∑ k, a(i,k) * W(k,j)) + (∑ k, b(i,k) * W(w₁+k,j)) + (∑ k, c(i,k) * W(w₁+w₂+k,j))`.
  Only associativity and commutativity of addition are used (the extended reals are a commutative
  additive monoid); no distributivity, no finiteness.
-/
import Idealize.ShloMosaic.Lib.Pipeline.Value
import Idealize.ShloMosaic.Lib.ValueIdx
import Idealize.ShloMosaic.PureOps.Ideal.Laws

noncomputable section

open scoped BigOperators

namespace Cert.Spec

open Idealize.ShloMosaic Idealize.ShloMosaic.ValueIdx

/-! ## Sums over `Fin` split at a boundary -/

/-- A sum over `N = m + n` indices is the sum over the first `m` plus the sum over the last `n`. -/
theorem sum_fin_split_at {M : Type*} [AddCommMonoid M] {N : Nat} (m n : Nat) (h : m + n = N) (f : Fin N → M) :
    ∑ k : Fin N, f k
      = (∑ k : Fin m, f ⟨k.val, by have := k.isLt; omega⟩) + ∑ k : Fin n, f ⟨m + k.val, by have := k.isLt; omega⟩ := by
  subst h
  rw [Fin.sum_univ_add]
  rfl

/-- `144 = 64 + 64 + 16`: a sum over 144 indices, grouped as the three consecutive blocks. -/
theorem sum_fin144_split {M : Type*} [AddCommMonoid M] (f : Fin 144 → M) :
    ∑ k : Fin 144, f k
      = ((∑ k : Fin 64, f ⟨k.val, by have := k.isLt; omega⟩)
          + ∑ k : Fin 64, f ⟨64 + k.val, by have := k.isLt; omega⟩)
        + ∑ k : Fin 16, f ⟨128 + k.val, by have := k.isLt; omega⟩ := by
  rw [sum_fin_split_at 128 16 rfl f,
    sum_fin_split_at 64 64 rfl (fun k : Fin 128 => f ⟨k.val, by have := k.isLt; omega⟩)]

/-- `192 = 64 + 64 + 64`. -/
theorem sum_fin192_split {M : Type*} [AddCommMonoid M] (f : Fin 192 → M) :
    ∑ k : Fin 192, f k
      = ((∑ k : Fin 64, f ⟨k.val, by have := k.isLt; omega⟩)
          + ∑ k : Fin 64, f ⟨64 + k.val, by have := k.isLt; omega⟩)
        + ∑ k : Fin 64, f ⟨128 + k.val, by have := k.isLt; omega⟩ := by
  rw [sum_fin_split_at 128 64 rfl f,
    sum_fin_split_at 64 64 rfl (fun k : Fin 128 => f ⟨k.val, by have := k.isLt; omega⟩)]

/-- `256 = 64 + 64 + 64 + 64`. -/
theorem sum_fin256_split {M : Type*} [AddCommMonoid M] (f : Fin 256 → M) :
    ∑ k : Fin 256, f k
      = (((∑ k : Fin 64, f ⟨k.val, by have := k.isLt; omega⟩)
          + ∑ k : Fin 64, f ⟨64 + k.val, by have := k.isLt; omega⟩)
          + ∑ k : Fin 64, f ⟨128 + k.val, by have := k.isLt; omega⟩)
        + ∑ k : Fin 64, f ⟨192 + k.val, by have := k.isLt; omega⟩ := by
  rw [sum_fin_split_at 192 64 rfl f,
    sum_fin_split_at 128 64 rfl (fun k : Fin 192 => f ⟨k.val, by have := k.isLt; omega⟩),
    sum_fin_split_at 64 64 rfl (fun k : Fin 128 => f ⟨k.val, by have := k.isLt; omega⟩)]

/-! ## A concatenation along the feature axis of a two-axis array, read at an index -/

section Concat
variable {α : Type}

/-- Piece `p` of a concatenation along axis 1 of `[R, K]`, of width `w` and starting at column `pre` (the widths of the
    pieces before it), read at row `i` and column `c = pre + k`: the piece itself at `(i, k)`. -/
theorem concatenate_cols_apply {R K w : Nat} (xs : List ((s : Shape) × (s.Idx → α)))
    (h : Shape.Concatenates (xs.map (·.1)) ⟨2, ![R, K]⟩ 1)
    (p : Nat) (hp : p < xs.length) (x : (⟨2, ![R, w]⟩ : Shape).Idx → α) (hx : xs[p] = ⟨⟨2, ![R, w]⟩, x⟩)
    (pre : Nat)
    (hpre : (((xs.take p).map (·.1)).map fun s : Shape =>
        if h : s.rank = (⟨2, ![R, K]⟩ : Shape).rank then s.size ((1 : Fin 2).cast h.symm) else 0).sum = pre)
    (i : Fin R) (k : Fin w) (c : Fin K) (hc : pre + k.val = c.val) :
    concatenate ⟨2, ![R, K]⟩ 1 xs h (ix2 i c) = x (ix2 i k) :=
  concatenate_apply_piece (1 : Fin 2) xs h (ix2 i c) p hp ⟨2, ![R, w]⟩ x hx rfl pre hpre (ix2 i k)
    (fun b hb => match b, hb with
      | ⟨0, _⟩, _ => rfl
      | ⟨1, _⟩, hb => absurd rfl hb)
    hc

end Concat

/-! ## A contraction over a concatenated feature axis is the sum of the pieces' contractions

`W` is the second factor as a function of the contraction index alone (a column of the weight matrix); a caller
instantiates it with `fun k => w (ix2 k j)`. The right-hand sides are associated as a left-to-right chain of additions. -/

section Contraction

/-- Pieces of widths 64, 64, 16 (`K = 144`):
    `∑ k<144, [a|b|c](i,k) * W k = ((∑ k<64, a(i,k) * W k) + (∑ k<64, b(i,k) * W (64+k))) + ∑ k<16, c(i,k) * W (128+k)`. -/
theorem sum_concat_64_64_16 {R : Nat}
    (a b : (⟨2, ![R, 64]⟩ : Shape).Idx → EReal) (c : (⟨2, ![R, 16]⟩ : Shape).Idx → EReal)
    (h : Shape.Concatenates [⟨2, ![R, 64]⟩, ⟨2, ![R, 64]⟩, ⟨2, ![R, 16]⟩] ⟨2, ![R, 144]⟩ 1)
    (W : Fin 144 → EReal) (i : Fin R) :
    ∑ k : Fin 144,
        concatenate ⟨2, ![R, 144]⟩ 1 [⟨⟨2, ![R, 64]⟩, a⟩, ⟨⟨2, ![R, 64]⟩, b⟩, ⟨⟨2, ![R, 16]⟩, c⟩] h (ix2 i k) * W k
      = ((∑ k : Fin 64, a (ix2 i k) * W ⟨k.val, by have := k.isLt; omega⟩)
          + ∑ k : Fin 64, b (ix2 i k) * W ⟨64 + k.val, by have := k.isLt; omega⟩)
        + ∑ k : Fin 16, c (ix2 i k) * W ⟨128 + k.val, by have := k.isLt; omega⟩ := by
  rw [sum_fin144_split]
  refine congrArg₂ (· + ·) (congrArg₂ (· + ·) ?_ ?_) ?_
  · refine Finset.sum_congr rfl fun k _ => ?_
    rw [concatenate_cols_apply [⟨⟨2, ![R, 64]⟩, a⟩, ⟨⟨2, ![R, 64]⟩, b⟩, ⟨⟨2, ![R, 16]⟩, c⟩] h 0 (by simp) a rfl 0 rfl i k _ (Nat.zero_add _)]
  · refine Finset.sum_congr rfl fun k _ => ?_
    rw [concatenate_cols_apply [⟨⟨2, ![R, 64]⟩, a⟩, ⟨⟨2, ![R, 64]⟩, b⟩, ⟨⟨2, ![R, 16]⟩, c⟩] h 1 (by simp) b rfl 64 rfl i k _ rfl]
  · refine Finset.sum_congr rfl fun k _ => ?_
    rw [concatenate_cols_apply [⟨⟨2, ![R, 64]⟩, a⟩, ⟨⟨2, ![R, 64]⟩, b⟩, ⟨⟨2, ![R, 16]⟩, c⟩] h 2 (by simp) c rfl 128 rfl i k _ rfl]

/-- Three pieces of width 64 (`K = 192`). -/
theorem sum_concat_64_64_64 {R : Nat}
    (a b c : (⟨2, ![R, 64]⟩ : Shape).Idx → EReal)
    (h : Shape.Concatenates [⟨2, ![R, 64]⟩, ⟨2, ![R, 64]⟩, ⟨2, ![R, 64]⟩] ⟨2, ![R, 192]⟩ 1)
    (W : Fin 192 → EReal) (i : Fin R) :
    ∑ k : Fin 192,
        concatenate ⟨2, ![R, 192]⟩ 1 [⟨⟨2, ![R, 64]⟩, a⟩, ⟨⟨2, ![R, 64]⟩, b⟩, ⟨⟨2, ![R, 64]⟩, c⟩] h (ix2 i k) * W k
      = ((∑ k : Fin 64, a (ix2 i k) * W ⟨k.val, by have := k.isLt; omega⟩)
          + ∑ k : Fin 64, b (ix2 i k) * W ⟨64 + k.val, by have := k.isLt; omega⟩)
        + ∑ k : Fin 64, c (ix2 i k) * W ⟨128 + k.val, by have := k.isLt; omega⟩ := by
  rw [sum_fin192_split]
  refine congrArg₂ (· + ·) (congrArg₂ (· + ·) ?_ ?_) ?_
  · refine Finset.sum_congr rfl fun k _ => ?_
    rw [concatenate_cols_apply [⟨⟨2, ![R, 64]⟩, a⟩, ⟨⟨2, ![R, 64]⟩, b⟩, ⟨⟨2, ![R, 64]⟩, c⟩] h 0 (by simp) a rfl 0 rfl i k _ (Nat.zero_add _)]
  · refine Finset.sum_congr rfl fun k _ => ?_
    rw [concatenate_cols_apply [⟨⟨2, ![R, 64]⟩, a⟩, ⟨⟨2, ![R, 64]⟩, b⟩, ⟨⟨2, ![R, 64]⟩, c⟩] h 1 (by simp) b rfl 64 rfl i k _ rfl]
  · refine Finset.sum_congr rfl fun k _ => ?_
    rw [concatenate_cols_apply [⟨⟨2, ![R, 64]⟩, a⟩, ⟨⟨2, ![R, 64]⟩, b⟩, ⟨⟨2, ![R, 64]⟩, c⟩] h 2 (by simp) c rfl 128 rfl i k _ rfl]

/-- Four pieces of width 64 (`K = 256`). -/
theorem sum_concat_64_64_64_64 {R : Nat}
    (a b c d : (⟨2, ![R, 64]⟩ : Shape).Idx → EReal)
    (h : Shape.Concatenates [⟨2, ![R, 64]⟩, ⟨2, ![R, 64]⟩, ⟨2, ![R, 64]⟩, ⟨2, ![R, 64]⟩] ⟨2, ![R, 256]⟩ 1)
    (W : Fin 256 → EReal) (i : Fin R) :
    ∑ k : Fin 256,
        concatenate ⟨2, ![R, 256]⟩ 1
          [⟨⟨2, ![R, 64]⟩, a⟩, ⟨⟨2, ![R, 64]⟩, b⟩, ⟨⟨2, ![R, 64]⟩, c⟩, ⟨⟨2, ![R, 64]⟩, d⟩] h (ix2 i k) * W k
      = (((∑ k : Fin 64, a (ix2 i k) * W ⟨k.val, by have := k.isLt; omega⟩)
          + ∑ k : Fin 64, b (ix2 i k) * W ⟨64 + k.val, by have := k.isLt; omega⟩)
          + ∑ k : Fin 64, c (ix2 i k) * W ⟨128 + k.val, by have := k.isLt; omega⟩)
        + ∑ k : Fin 64, d (ix2 i k) * W ⟨192 + k.val, by have := k.isLt; omega⟩ := by
  rw [sum_fin256_split]
  refine congrArg₂ (· + ·) (congrArg₂ (· + ·) (congrArg₂ (· + ·) ?_ ?_) ?_) ?_
  · refine Finset.sum_congr rfl fun k _ => ?_
    rw [concatenate_cols_apply [⟨⟨2, ![R, 64]⟩, a⟩, ⟨⟨2, ![R, 64]⟩, b⟩, ⟨⟨2, ![R, 64]⟩, c⟩, ⟨⟨2, ![R, 64]⟩, d⟩] h 0 (by simp) a rfl 0 rfl i k _ (Nat.zero_add _)]
  · refine Finset.sum_congr rfl fun k _ => ?_
    rw [concatenate_cols_apply [⟨⟨2, ![R, 64]⟩, a⟩, ⟨⟨2, ![R, 64]⟩, b⟩, ⟨⟨2, ![R, 64]⟩, c⟩, ⟨⟨2, ![R, 64]⟩, d⟩] h 1 (by simp) b rfl 64 rfl i k _ rfl]
  · refine Finset.sum_congr rfl fun k _ => ?_
    rw [concatenate_cols_apply [⟨⟨2, ![R, 64]⟩, a⟩, ⟨⟨2, ![R, 64]⟩, b⟩, ⟨⟨2, ![R, 64]⟩, c⟩, ⟨⟨2, ![R, 64]⟩, d⟩] h 2 (by simp) c rfl 128 rfl i k _ rfl]
  · refine Finset.sum_congr rfl fun k _ => ?_
    rw [concatenate_cols_apply [⟨⟨2, ![R, 64]⟩, a⟩, ⟨⟨2, ![R, 64]⟩, b⟩, ⟨⟨2, ![R, 64]⟩, c⟩, ⟨⟨2, ![R, 64]⟩, d⟩] h 3 (by simp) d rfl 192 rfl i k _ rfl]

end Contraction

end Cert.Spec

end
-- ==== Proof.LibConcatRows.lean ====
/-
  A concatenation along the leading axis of a two-axis array, read at an index: stacking arrays
  `[h₀, K], [h₁, K], …` on top of each other into `[R, K]`, row `pre + r` of the result — `pre` the
  total height of the pieces above piece `p` — is row `r` of piece `p`, column by column.
-/
import Idealize.ShloMosaic.Lib.Pipeline.Value
import Idealize.ShloMosaic.Lib.ValueIdx
import Idealize.ShloMosaic.PureOps.Ideal.Laws

noncomputable section

namespace Cert.Spec

open Idealize.ShloMosaic Idealize.ShloMosaic.ValueIdx

section ConcatRows
variable {α : Type}

/-- Piece `p` of a concatenation along axis 0 of `[R, K]`, of height `h` and starting at row `pre` (the heights of the
    pieces above it), read at row `row = pre + r` and column `k`: the piece itself at `(r, k)`. -/
theorem concatenate_rows_apply {R K h : Nat} (xs : List ((s : Shape) × (s.Idx → α)))
    (hc : Shape.Concatenates (xs.map (·.1)) ⟨2, ![R, K]⟩ 0)
    (p : Nat) (hp : p < xs.length) (x : (⟨2, ![h, K]⟩ : Shape).Idx → α) (hx : xs[p] = ⟨⟨2, ![h, K]⟩, x⟩)
    (pre : Nat)
    (hpre : (((xs.take p).map (·.1)).map fun s : Shape =>
        if hh : s.rank = (⟨2, ![R, K]⟩ : Shape).rank then s.size ((0 : Fin 2).cast hh.symm) else 0).sum = pre)
    (r : Fin h) (k : Fin K) (row : Fin R) (hrow : pre + r.val = row.val) :
    concatenate ⟨2, ![R, K]⟩ 0 xs hc (ix2 row k) = x (ix2 r k) :=
  concatenate_apply_piece (0 : Fin 2) xs hc (ix2 row k) p hp ⟨2, ![h, K]⟩ x hx rfl pre hpre (ix2 r k)
    (fun b hb => match b, hb with
      | ⟨0, _⟩, hb => absurd rfl hb
      | ⟨1, _⟩, _ => rfl)
    hrow

end ConcatRows

end Cert.Spec

end
-- ==== Proof.LibReduceMax.lean ====
/-
  A maximum over finitely many extended reals, started from −∞, is their supremum: it is below a
  bound exactly when every entry is, and every entry is below it. Stated for a one-operand
  `stablehlo.reduce` with a maximum body that reduces a whole array into a single value (the result
  shape has exactly one index), read at the ideal values, where floats are extended reals and
  `maximumf` is `max`.
-/
import Idealize.ShloMosaic.PureOps.Ideal
import Idealize.ShloMosaic.PureOps.Reduce
import Idealize.ShloMosaic.PureOps.Ideal.Laws

namespace Cert.Spec

open Idealize.ShloMosaic

/-- A fold of `max` over a finite set, from the start value `b`, is below `c` exactly when `b` and
    every folded value are: the fold is the largest of finitely many extended reals. -/
theorem fold_maximumf_le_iff {ι : Type} (S : Finset ι) (b : EReal) (f : ι → EReal) (c : EReal) :
    S.fold (FloatOps.maximumf (F := Ideal) (φ := .f32)) b f ≤ c ↔ b ≤ c ∧ ∀ x ∈ S, f x ≤ c := by
  classical
  induction S using Finset.induction_on with
  | empty => simp
  | insert a S ha ih =>
    rw [Finset.fold_insert ha, Ideal.maximumf_def, max_le_iff, ih]
    constructor
    · rintro ⟨h1, h2, h3⟩
      refine ⟨h2, fun x hx => ?_⟩
      rcases Finset.mem_insert.1 hx with rfl | hx
      · exact h1
      · exact h3 x hx
    · rintro ⟨h1, h2⟩
      exact ⟨h2 a (Finset.mem_insert_self a S), h1, fun x hx => h2 x (Finset.mem_insert_of_mem hx)⟩

/-- A full reduce with a maximum body from an initial value −∞ is below `c` exactly when every entry
    is: the maximum of finitely many entries, started from −∞, is their least upper bound. -/
theorem hostReduce_max_le_iff {s t u : Shape} {axes : List (Fin s.rank)} [Subsingleton t.Idx]
    (A : s.Idx → EReal) (init : u.Idx → EReal) (h : s.ReducesTo axes t) (hu : 0 < u.numel)
    (hinit : init (Shape.Idx.first hu) = ⊥) (j : t.Idx) (c : EReal) :
    Host.reduce (FloatOps.maximumf (F := Ideal) (φ := .f32)) A init h hu j ≤ c ↔ ∀ i, A i ≤ c := by
  rw [Host.reduce_eq_fold, fold_maximumf_le_iff, hinit]
  constructor
  · rintro ⟨-, h2⟩ i
    exact h2 i (Finset.mem_filter.2 ⟨Finset.mem_univ i, Subsingleton.elim _ _⟩)
  · intro h2
    exact ⟨bot_le, fun i _ => h2 i⟩

/-- Every entry is at most the full maximum-reduce from −∞: the maximum is an upper bound. -/
theorem le_hostReduce_max {s t u : Shape} {axes : List (Fin s.rank)} [Subsingleton t.Idx]
    (A : s.Idx → EReal) (init : u.Idx → EReal) (h : s.ReducesTo axes t) (hu : 0 < u.numel)
    (hinit : init (Shape.Idx.first hu) = ⊥) (j : t.Idx) (i : s.Idx) :
    A i ≤ Host.reduce (FloatOps.maximumf (F := Ideal) (φ := .f32)) A init h hu j :=
  (hostReduce_max_le_iff A init h hu hinit j _).1 le_rfl i

/-- The f32 word `0xFF800000` (sign set, exponent all ones, mantissa zero) is −∞, so a rank-zero
    constant of that word is `⊥` at its one index. -/
theorem constant_negInf_first (hu : 0 < (⟨0, ![]⟩ : Shape).numel) :
    (constant (⟨0, ![]⟩ : Shape) .f32 0xFF800000#32 : FVec Ideal _ .f32) (Shape.Idx.first hu) = ⊥ := by
  show Ideal.ofBits .f32 0xFF800000#32 = ⊥
  simp [Ideal.ofBits, Ideal.ieee]

/-- A fold of `max` over a finite set is attained: it is the start value or one of the folded values. -/
theorem fold_maximumf_mem {ι : Type} (S : Finset ι) (b : EReal) (f : ι → EReal) :
    S.fold (FloatOps.maximumf (F := Ideal) (φ := .f32)) b f = b
      ∨ ∃ x ∈ S, S.fold (FloatOps.maximumf (F := Ideal) (φ := .f32)) b f = f x := by
  classical
  induction S using Finset.induction_on with
  | empty => simp
  | insert a S ha ih =>
    rw [Finset.fold_insert ha, Ideal.maximumf_def]
    rcases max_choice (f a) (S.fold (FloatOps.maximumf (F := Ideal) (φ := .f32)) b f) with e | e
    · exact Or.inr ⟨a, Finset.mem_insert_self a S, e⟩
    · rw [e]
      rcases ih with e' | ⟨x, hx, e'⟩
      · exact Or.inl e'
      · exact Or.inr ⟨x, Finset.mem_insert_of_mem hx, e'⟩

/-- The full maximum-reduce from −∞ is attained: it is −∞ or one of the entries. -/
theorem hostReduce_max_eq_bot_or_mem {s t u : Shape} {axes : List (Fin s.rank)}
    (A : s.Idx → EReal) (init : u.Idx → EReal) (h : s.ReducesTo axes t) (hu : 0 < u.numel)
    (hinit : init (Shape.Idx.first hu) = ⊥) (j : t.Idx) :
    Host.reduce (FloatOps.maximumf (F := Ideal) (φ := .f32)) A init h hu j = ⊥
      ∨ ∃ i, Host.reduce (FloatOps.maximumf (F := Ideal) (φ := .f32)) A init h hu j = A i := by
  rw [Host.reduce_eq_fold, hinit]
  rcases fold_maximumf_mem (Finset.univ.filter fun i => h.drop i = j) ⊥ A with e | ⟨x, -, e⟩
  · exact Or.inl e
  · exact Or.inr ⟨x, e⟩

/-- When no entry is +∞ the full maximum-reduce from −∞ is not +∞: it is −∞ or an entry. -/
theorem hostReduce_max_ne_top {s t u : Shape} {axes : List (Fin s.rank)}
    (A : s.Idx → EReal) (init : u.Idx → EReal) (h : s.ReducesTo axes t) (hu : 0 < u.numel)
    (hinit : init (Shape.Idx.first hu) = ⊥) (j : t.Idx) (hA : ∀ i, A i ≠ ⊤) :
    Host.reduce (FloatOps.maximumf (F := Ideal) (φ := .f32)) A init h hu j ≠ ⊤ := by
  rcases hostReduce_max_eq_bot_or_mem A init h hu hinit j with e | ⟨i, e⟩
  · rw [e]; exact bot_ne_top
  · rw [e]; exact hA i

/-- Over real entries (at least one of them: `i₁` names an index) the full maximum-reduce from −∞ is
    the largest entry: a real, attained at some index, and an upper bound of all of them. -/
theorem hostReduce_max_coe {s t u : Shape} {axes : List (Fin s.rank)} [Subsingleton t.Idx]
    (A : s.Idx → EReal) (a : s.Idx → ℝ) (hA : ∀ i, A i = ((a i : ℝ) : EReal))
    (init : u.Idx → EReal) (h : s.ReducesTo axes t) (hu : 0 < u.numel)
    (hinit : init (Shape.Idx.first hu) = ⊥) (j : t.Idx) (i₁ : s.Idx) :
    ∃ i₀, Host.reduce (FloatOps.maximumf (F := Ideal) (φ := .f32)) A init h hu j = ((a i₀ : ℝ) : EReal)
      ∧ ∀ i, a i ≤ a i₀ := by
  have hle := le_hostReduce_max A init h hu hinit j
  rcases hostReduce_max_eq_bot_or_mem A init h hu hinit j with e | ⟨i₀, e⟩
  · have := hle i₁
    rw [e, hA i₁] at this
    exact absurd (le_bot_iff.1 this) (EReal.coe_ne_bot _)
  · refine ⟨i₀, by rw [e, hA i₀], fun i => ?_⟩
    have := hle i
    rw [e, hA i, hA i₀] at this
    exact EReal.coe_le_coe_iff.1 this

/-- With a nonnegative entry (at index `i₁`) the full maximum-reduce from −∞ is nonnegative. -/
theorem hostReduce_max_nonneg {s t u : Shape} {axes : List (Fin s.rank)} [Subsingleton t.Idx]
    (A : s.Idx → EReal) (init : u.Idx → EReal) (h : s.ReducesTo axes t) (hu : 0 < u.numel)
    (hinit : init (Shape.Idx.first hu) = ⊥) (j : t.Idx) (i₁ : s.Idx) (hA : 0 ≤ A i₁) :
    0 ≤ Host.reduce (FloatOps.maximumf (F := Ideal) (φ := .f32)) A init h hu j :=
  le_trans hA (le_hostReduce_max A init h hu hinit j i₁)

/-- Over nonnegative entries, a full maximum-reduce from −∞ that is zero forces every entry to be zero. -/
theorem eq_zero_of_hostReduce_max_eq_zero {s t u : Shape} {axes : List (Fin s.rank)} [Subsingleton t.Idx]
    (A : s.Idx → EReal) (init : u.Idx → EReal) (h : s.ReducesTo axes t) (hu : 0 < u.numel)
    (hinit : init (Shape.Idx.first hu) = ⊥) (j : t.Idx) (hA : ∀ i, 0 ≤ A i)
    (h0 : Host.reduce (FloatOps.maximumf (F := Ideal) (φ := .f32)) A init h hu j = 0) (i : s.Idx) :
    A i = 0 :=
  le_antisymm (h0 ▸ le_hostReduce_max A init h hu hinit j i) (hA i)

end Cert.Spec
-- ==== Proof.RefLayer.lean ====
/-
  The reference computes the linear layer.

  The activations with a column of ones appended, `in`, read `x(p,k)` in the first 2048 columns and `1` in the last; the
  transposed weights with the bias row stacked underneath, `wb`, read `w(q,k)` in the first 2048 rows and `b(q)` in the
  last. All of these are reals when the inputs are, so the conductance model cancels and the reference's entry is
  `∑ k < 2049, in(p,k) · wb(k,q)`; splitting off the last coordinate, that is
  `(∑ k < 2048, x(p,k) · w(q,k)) + 1 · b(q)`, the linear layer.
-/
import proofs.«118814_j14525579395745_2_alg».proof.Proof.RefEntry
import proofs.«118814_j14525579395745_2_alg».proof.Proof.Cancel
import proofs.«118814_j14525579395745_2_alg».proof.Proof.Consts
import proofs.«118814_j14525579395745_2_alg».proof.Proof.Linear
import proofs.«118814_j14525579395745_2_alg».proof.Proof.LibSumSplit
import proofs.«118814_j14525579395745_2_alg».proof.Proof.LibConcatRows
import proofs.«118814_j14525579395745_2_alg».proof.Proof.LibReduceMax

noncomputable section

open scoped BigOperators

namespace Cert.ReferenceIdeal.Layer

open Cert.ReferenceIdeal Cert.ReferenceIdeal.ReadP Cert.ReferenceIdeal.Entry Cert.Spec
open Idealize.ShloMosaic Idealize.ShloMosaic.ValueIdx

/-! ## The two stacked arrays, read at an index -/

/-- In its first 2048 columns the extended input is the input. -/
theorem in_lt (x0 : FVec Ideal S512x2048 .f32) (p : Fin 512) (k : Fin 2048) :
    val_main_v1 (F := Ideal) x0 (ix2 p ⟨k.val, by have := k.isLt; omega⟩) = x0 (ix2 p k) := by
  unfold val_main_v1
  exact concatenate_cols_apply [⟨S512x2048, x0⟩, ⟨S512x1, val_main_v0 (F := Ideal)⟩] _ 0 (by simp) x0 rfl 0 rfl p k _
    (Nat.zero_add _)

/-- Its last column is the constant one. -/
theorem in_last (x0 : FVec Ideal S512x2048 .f32) (p : Fin 512) :
    val_main_v1 (F := Ideal) x0 (ix2 p ⟨2048, by omega⟩) = 1 := by
  unfold val_main_v1
  rw [concatenate_cols_apply [⟨S512x2048, x0⟩, ⟨S512x1, val_main_v0 (F := Ideal)⟩] _ 1 (by simp)
      (val_main_v0 (F := Ideal)) rfl 2048 rfl p (0 : Fin 1) _ rfl,
    val_main_v0_apply, val_main_cst_apply, Ideal.ofBits_def]
  exact Cert.Consts.one

/-- In its first 2048 rows the stacked array is the transposed weight matrix: row `k`, column `q` is `w(q,k)`. -/
theorem wb_lt (x1 : FVec Ideal S2048x2048 .f32) (x2 : FVec Ideal S2048 .f32) (k q : Fin 2048) :
    val_main_v4 (F := Ideal) x1 x2 (ix2 ⟨k.val, by have := k.isLt; omega⟩ q) = x1 (ix2 q k) := by
  unfold val_main_v4
  have e := concatenate_rows_apply (R := 2049)
    [⟨S2048x2048, val_main_v2 (F := Ideal) x1⟩, ⟨S1x2048, val_main_v3 (F := Ideal) x2⟩]
    Gen.concatenates_S2048x2048_S1x2048_S2049x2048_d0 0 (by simp) (val_main_v2 (F := Ideal) x1) rfl 0 rfl k q
    ⟨k.val, by have := k.isLt; omega⟩ (Nat.zero_add _)
  rw [e, val_main_v2_apply]
  exact congrArg x1 (funext fun a => Fin.ext (by match a with | ⟨0, _⟩ => rfl | ⟨1, _⟩ => rfl))

/-- Its last row is the bias. -/
theorem wb_last (x1 : FVec Ideal S2048x2048 .f32) (x2 : FVec Ideal S2048 .f32) (q : Fin 2048) :
    val_main_v4 (F := Ideal) x1 x2 (ix2 ⟨2048, by omega⟩ q) = x2 (ix1 q) := by
  unfold val_main_v4
  have e := concatenate_rows_apply (R := 2049)
    [⟨S2048x2048, val_main_v2 (F := Ideal) x1⟩, ⟨S1x2048, val_main_v3 (F := Ideal) x2⟩]
    Gen.concatenates_S2048x2048_S1x2048_S2049x2048_d0 1 (by simp) (val_main_v3 (F := Ideal) x2) rfl 2048 rfl
    (0 : Fin 1) q ⟨2048, by omega⟩ rfl
  rw [e, val_main_v3_apply]
  exact congrArg x2 (funext fun a => Fin.ext (by match a with | ⟨0, _⟩ => rfl))

/-! ## Every entry of the two stacked arrays is a real -/

/-- An index of the extended input is a row and one of 2049 columns: below 2048, or the last. -/
theorem col_cases (k : Fin 2049) :
    (∃ k' : Fin 2048, k = ⟨k'.val, by have := k'.isLt; omega⟩) ∨ k = ⟨2048, by omega⟩ := by
  by_cases h : k.val < 2048
  · exact Or.inl ⟨⟨k.val, h⟩, rfl⟩
  · exact Or.inr (Fin.ext (show k.val = 2048 by have := k.isLt; omega))

theorem in_real (x0 : FVec Ideal S512x2048 .f32) (h0 : ∀ i, ∃ r : ℝ, x0 i = (r : EReal)) (p : Fin 512) (k : Fin 2049) :
    ∃ r : ℝ, val_main_v1 (F := Ideal) x0 (ix2 p k) = (r : EReal) := by
  rcases col_cases k with ⟨k', rfl⟩ | rfl
  · rw [in_lt]; exact h0 _
  · rw [in_last]; exact ⟨1, rfl⟩

theorem wb_real (x1 : FVec Ideal S2048x2048 .f32) (x2 : FVec Ideal S2048 .f32)
    (h1 : ∀ i, ∃ r : ℝ, x1 i = (r : EReal)) (h2 : ∀ i, ∃ r : ℝ, x2 i = (r : EReal)) (k : Fin 2049) (q : Fin 2048) :
    ∃ r : ℝ, val_main_v4 (F := Ideal) x1 x2 (ix2 k q) = (r : EReal) := by
  rcases col_cases k with ⟨k', rfl⟩ | rfl
  · rw [wb_lt]; exact h1 _
  · rw [wb_last]; exact h2 _

theorem wb_real_idx (x1 : FVec Ideal S2048x2048 .f32) (x2 : FVec Ideal S2048 .f32)
    (h1 : ∀ i, ∃ r : ℝ, x1 i = (r : EReal)) (h2 : ∀ i, ∃ r : ℝ, x2 i = (r : EReal)) (j : S2049x2048.Idx) :
    ∃ r : ℝ, val_main_v4 (F := Ideal) x1 x2 j = (r : EReal) := by
  obtain ⟨k, q, rfl⟩ : ∃ (k : Fin 2049) (q : Fin 2048), j = ix2 k q := ⟨j 0, j 1, eq_ix2 j⟩
  exact wb_real x1 x2 h1 h2 k q

/-! ## The largest `|wb|` is the least upper bound of the `|wb|` -/

theorem largest_le_iff (x1 : FVec Ideal S2048x2048 .f32) (x2 : FVec Ideal S2048 .f32) (u : EReal) :
    val_main_v8 (F := Ideal) x1 x2 pt ≤ u
      ↔ ∀ j, max (val_main_v4 (F := Ideal) x1 x2 j) (-(val_main_v4 (F := Ideal) x1 x2 j)) ≤ u := by
  have h := hostReduce_max_le_iff (val_main_v7 (F := Ideal) x1 x2) (val_main_cst_1 (F := Ideal))
    Facts₀.reducesTo_S2049x2048_S_d0_1 Facts₀.h_S_ (constant_negInf_first _) pt u
  simp only [val_main_v7_apply, Ideal.hostAbsf_def, Ideal.absf_def] at h
  exact h

/-! ## The entry -/

/-- THE REFERENCE's entry at row `p` and output feature `q`, for inputs that are reals, is the linear layer's. -/
theorem entry_eq (x0 : FVec Ideal S512x2048 .f32) (x1 : FVec Ideal S2048x2048 .f32) (x2 : FVec Ideal S2048 .f32)
    (h0 : ∀ i, ∃ r : ℝ, x0 i = (r : EReal)) (h1 : ∀ i, ∃ r : ℝ, x1 i = (r : EReal))
    (h2 : ∀ i, ∃ r : ℝ, x2 i = (r : EReal)) (p : Fin 512) (q : Fin 2048) :
    val_main_v25 (F := Ideal) x0 x1 x2 (ix2 p q) = linearAt x0 x1 x2 p q := by
  obtain ⟨c, hc, hC⟩ := Cert.Consts.gap_pos
  haveI : Nonempty S2049x2048.Idx := ⟨ix2 (⟨0, by decide⟩ : Fin 2049) (⟨0, by decide⟩ : Fin 2048)⟩
  have hscale := scale_cases (val_main_v4 (F := Ideal) x1 x2) (wb_real_idx x1 x2 h1 h2)
    (val_main_v8 (F := Ideal) x1 x2 pt) (largest_le_iff x1 x2) c hc
  rw [← hC] at hscale
  have hS : (∃ s : ℝ, 0 < s ∧ Ideal.div C (val_main_v8 (F := Ideal) x1 x2 pt) = (s : EReal))
      ∨ (Ideal.div C (val_main_v8 (F := Ideal) x1 x2 pt) = ⊤
          ∧ ∀ k : Fin 2049, val_main_v4 (F := Ideal) x1 x2 (ix2 k q) = 0) :=
    hscale.imp id fun h => ⟨h.1, fun k => h.2 _⟩
  refine (entry_shape x0 x1 x2 p q).trans ?_
  refine (cancel (n := 2049) (fun k => val_main_v1 (F := Ideal) x0 (ix2 p k))
    (fun k => val_main_v4 (F := Ideal) x1 x2 (ix2 k q)) (fun k => in_real x0 h0 p k) (fun k => wb_real x1 x2 h1 h2 k q)
    H G (Ideal.div C (val_main_v8 (F := Ideal) x1 x2 pt)) Cert.Consts.half_pos Cert.Consts.offset_real hS).trans ?_
  rw [Fin.sum_univ_castSucc]
  unfold linearAt
  refine congrArg₂ (· + ·) (Finset.sum_congr rfl fun k _ => ?_) ?_
  · show val_main_v1 (F := Ideal) x0 (ix2 p ⟨k.val, _⟩) * val_main_v4 (F := Ideal) x1 x2 (ix2 ⟨k.val, _⟩ q) = _
    rw [in_lt, wb_lt]
  · show val_main_v1 (F := Ideal) x0 (ix2 p ⟨2048, _⟩) * val_main_v4 (F := Ideal) x1 x2 (ix2 ⟨2048, _⟩ q) = _
    rw [in_last, wb_last, one_mul]

/-- THE REFERENCE's result array, for inputs that are reals, is the linear layer. -/
theorem result_eq (x0 : FVec Ideal S512x2048 .f32) (x1 : FVec Ideal S2048x2048 .f32) (x2 : FVec Ideal S2048 .f32)
    (h0 : ∀ i, ∃ r : ℝ, x0 i = (r : EReal)) (h1 : ∀ i, ∃ r : ℝ, x1 i = (r : EReal))
    (h2 : ∀ i, ∃ r : ℝ, x2 i = (r : EReal)) :
    val_main_v25 (F := Ideal) x0 x1 x2 = linear x0 x1 x2 := by
  funext i
  obtain ⟨p, q, rfl⟩ : ∃ (p : Fin 512) (q : Fin 2048), i = ix2 p q := ⟨i 0, i 1, eq_ix2 i⟩
  rw [entry_eq x0 x1 x2 h0 h1 h2 p q]
  rfl

end Cert.ReferenceIdeal.Layer

end
-- ==== Proof.Stored.lean ====
/-
  The body's stored value, read at an index.

  At every grid point the body loads the whole activation block `a` (512 × 2048), a block `w` of 256 rows of the
  weight matrix (256 × 2048) and the matching 1 × 256 block `b` of the bias row, and stores
  `a · wᵀ + b` (512 × 256): the matrix product contracts the second axis of BOTH operands into a zero accumulator,
  the narrowing of the operands' format is the identity on the extended reals, and the bias row is repeated down the
  512 rows. So the entry at row `p` and column `q` of what is stored is
  `(∑ k < 2048, a(p,k) · w(q,k)) + b(0,q)`.
-/
import proofs.«118814_j14525579395745_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Stored

open Cert.KernelIdeal Cert.KernelIdeal.Gen Idealize.ShloMosaic Idealize.ShloMosaic.ValueIdx

/-- The product's dimension numbers: both operands contract their second axis; the rows of the left operand and the
    rows of the right operand are the two axes of the result. -/
abbrev D := dot_S512x2048_S256x2048_S512x256_1_1_0_0_n_n

/-- The left operand's row is the result's row. -/
theorem lhs_row (i : S512x256.Idx) (c : D.contr.Idx) : (D.lhsIdx i c 0).val = (i 0).val := by
  unfold DotDims.lhsIdx
  rw [dif_neg (show ¬(0 : Fin S512x2048.rank) ∈ D.lhsBatch by decide),
    dif_pos (show (0 : Fin S512x2048.rank) ∈ D.lhsNonContracting by decide)]
  rfl

/-- The left operand's column is the contracted coordinate. -/
theorem lhs_col (i : S512x256.Idx) (c : D.contr.Idx) : (D.lhsIdx i c 1).val = (c ⟨0, by decide⟩).val :=
  D.lhsIdx_val_of_single rfl i c

/-- The right operand's row is the result's column. -/
theorem rhs_row (i : S512x256.Idx) (c : D.contr.Idx) : (D.rhsIdx i c 0).val = (i 1).val := by
  unfold DotDims.rhsIdx
  rw [dif_neg (show ¬(0 : Fin S256x2048.rank) ∈ D.rhsBatch by decide),
    dif_pos (show (0 : Fin S256x2048.rank) ∈ D.rhsNonContracting by decide)]
  rfl

/-- The right operand's column is the contracted coordinate. -/
theorem rhs_col (i : S512x256.Idx) (c : D.contr.Idx) : (D.rhsIdx i c 1).val = (c ⟨0, by decide⟩).val :=
  D.rhsIdx_val_of_single rfl i c

/-- The product into the zero accumulator, at row `p` and column `q`: the sum over the 2048 contracted coordinates of
    the left operand's row `p` against the right operand's row `q`. -/
theorem product_apply (a : FVec Ideal S512x2048 .bf16) (w : FVec Ideal S256x2048 .bf16) (p : Fin 512) (q : Fin 256) :
    matmul D none a w (constant S512x256 .f32 0x00000000#32) (ix2 p q) = ∑ k : Fin 2048, a (ix2 p k) * w (ix2 q k) := by
  show FloatOps.matmul D none a w (constant S512x256 .f32 0x00000000#32) (ix2 p q) = _
  rw [Ideal.matmul_constant_zero_apply, ← Equiv.sum_comp (contrEquiv1 D 2048 rfl rfl).symm]
  refine Finset.sum_congr rfl fun k _ => ?_
  have hk := contrEquiv1_symm_val D 2048 rfl rfl k
  have el : D.lhsIdx (ix2 p q) ((contrEquiv1 D 2048 rfl rfl).symm k) = ix2 p k := funext fun x => Fin.ext (by
    match x with
    | ⟨0, _⟩ => exact lhs_row _ _
    | ⟨1, _⟩ => exact (lhs_col _ _).trans hk)
  have er : D.rhsIdx (ix2 p q) ((contrEquiv1 D 2048 rfl rfl).symm k) = ix2 q k := funext fun x => Fin.ext (by
    match x with
    | ⟨0, _⟩ => exact rhs_row _ _
    | ⟨1, _⟩ => exact (rhs_col _ _).trans hk)
  rw [el, er]

/-- The bias row repeated down the rows, at row `p` and column `q`: the row's entry `q`. -/
theorem bias_rows_apply (b : FVec Ideal S1x256 .f32) (p : Fin 512) (q : Fin 256) :
    broadcastTo S512x256 b Facts₀.broadcasts_S1x256_S512x256 (ix2 p q) = b (ix2 0 q) :=
  broadcastTo_apply b _ (ix2 p q) (ix2 0 q) (fun x => match x with
    | ⟨0, _⟩ => by show (0 : Nat) = if (1 : Nat) = 1 then 0 else _; rw [if_pos rfl]
    | ⟨1, _⟩ => by show q.val = if (256 : Nat) = 1 then 0 else q.val; rw [if_neg (by decide)])

/-- THE STORED VALUE at row `p` and column `q`: `(∑ k, a(p,k) · w(q,k)) + b(0,q)`. -/
theorem stored_apply (a : Vec Ideal S512x2048 .f32) (w : Vec Ideal S256x2048 .f32) (b : Vec Ideal S1x256 .f32)
    (p : Fin 512) (q : Fin 256) :
    k0_pay1 (F := Ideal) a w b (ix2 p q) = (∑ k : Fin 2048, a (ix2 p k) * w (ix2 q k)) + b (ix2 0 q) := by
  show (matmul (F := Ideal) D none (truncf .bf16 a Facts₀.bitsLt_bf16_f32) (truncf .bf16 w Facts₀.bitsLt_bf16_f32)
        (constant S512x256 .f32 0x00000000#32) (ix2 p q) : EReal)
      + broadcastTo S512x256 (shapeCast S1x256 b Facts₀.shapeCasts_S1x256_S1x256) Facts₀.broadcasts_S1x256_S512x256 (ix2 p q) = _
  rw [shapeCast_self, product_apply, bias_rows_apply]
  rfl

end Cert.KernelIdeal.Stored

end
-- ==== Proof.KernelArray.lean ====
/-
  From blocks to the array: the kernel's output after the run is the linear layer of its three arguments.

  The grid has 8 points. At point t the body is given
    • the whole activation array x (512 × 2048), the same block at every point,
    • rows 256·t … 256·t + 255 of the weight matrix w (a 256 × 2048 block),
    • entries 256·t … 256·t + 255 of the bias, as a 1 × 256 block of the bias laid out as one row of 2048
      (that row is the bias vector reshaped before the grid starts: its entry (0, j) is the bias's entry j),
  and it writes the 512 × 256 block of the output whose columns are 256·t … 256·t + 255, all 512 rows.

  What the body stores at row p, column q of its block is (∑ k, a(p,k) · w_blk(q,k)) + b_blk(0,q). Read through
  the blocks' positions this is (∑ k, x(p,k) · w(256·t + q, k)) + b(256·t + q): the layer's entry at row p and
  output feature 256·t + q, which is exactly the array position the output block puts it at. So every point
  writes the matching block of ONE function, the layer. The 8 column bands 256·t … 256·t + 255 tile the 2048
  columns (column q lies in band q / 256), so every entry of the output array is written, and the array ends
  holding the layer.
-/
import proofs.«118814_j14525579395745_2_alg».proof.Proof.Gen.KernelIdeal.Value
import proofs.«118814_j14525579395745_2_alg».proof.Proof.Stored
import proofs.«118814_j14525579395745_2_alg».proof.Proof.Linear
import Idealize.ShloMosaic.Lib.Pipeline.Value
import Idealize.ShloMosaic.Lib.ValueIdx

noncomputable section

open scoped BigOperators

namespace Cert.KernelIdeal.Array

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The body's loads and its store go through rectangles at offset (0, 0). -/
theorem zero_offsets : (![0, 0] : Fin 2 → Nat) = fun _ => 0 := funext fun a => by fin_cases a <;> rfl

/-- Where each window's block sits at grid point `t`, as block indices per axis: the activations always at block
    (0, 0); the weights at block row `t`; the bias row and the output at block column `t`. Checked at each of the
    8 points. -/
theorem block_indices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- The activation block at any point is the whole activation array: entry `y` of the block is the array's entry
    with the same coordinates. A block's coordinate is block index × block size + the coordinate inside the block,
    and the block index is 0 on both axes. -/
theorem activations_block_apply (c : Dev nD) (t : Fin cfg0.N) (y : S512x2048.Idx) (k : S512x2048.Idx)
    (h0 : (k 0).val = (y 0).val) (h1 : (k 1).val = (y 1).val) :
    (iblk m c 0 t : Vec Ideal S512x2048 .f32) y = (m ((c : Thread nD τ).loc main_arg0) : S512x2048.Idx → EReal) k := by
  obtain ⟨e0, e1, -⟩ := block_indices t
  unfold iblk
  rw [View.read_apply]
  show V m c main_arg0 (((cfg0.win 0).blk t).view.emb y) = m ((c : Thread nD τ).loc main_arg0) k
  rw [V_main_arg0]
  refine congrArg _ (funext fun a => Fin.ext ?_)
  match a with
  | ⟨0, _⟩ => show win0_0.index t (0 : Fin 2) * 512 + 1 * (y 0).val = (k 0).val; omega
  | ⟨1, _⟩ => show win0_0.index t (1 : Fin 2) * 2048 + 1 * (y 1).val = (k 1).val; omega

/-- The weight block at point `t` is rows 256·t … 256·t + 255 of the weight matrix: its entry (q, k) is the
    matrix's entry (256·t + q, k). -/
theorem weight_rows_block_apply (c : Dev nD) (t : Fin cfg0.N) (y : S256x2048.Idx) (k : S2048x2048.Idx)
    (h0 : (k 0).val = 256 * t.val + (y 0).val) (h1 : (k 1).val = (y 1).val) :
    (iblk m c 1 t : Vec Ideal S256x2048 .f32) y = (m ((c : Thread nD τ).loc main_arg1) : S2048x2048.Idx → EReal) k := by
  obtain ⟨-, -, e2, e3, -⟩ := block_indices t
  unfold iblk
  rw [View.read_apply]
  show V m c main_arg1 (((cfg0.win 1).blk t).view.emb y) = m ((c : Thread nD τ).loc main_arg1) k
  rw [V_main_arg1]
  refine congrArg _ (funext fun a => Fin.ext ?_)
  match a with
  | ⟨0, _⟩ => show win0_1.index t (0 : Fin 2) * 256 + 1 * (y 0).val = (k 0).val; omega
  | ⟨1, _⟩ => show win0_1.index t (1 : Fin 2) * 2048 + 1 * (y 1).val = (k 1).val; omega

/-- The 1 × 2048 array the bias window reads is the bias vector reshaped to one row, done before the grid starts. -/
theorem bias_as_row (c : Dev nD) :
    (V m c main_v0 : S1x2048.Idx → EReal)
      = shapeCast S1x2048 (m ((c : Thread nD τ).loc main_arg2) : S2048.Idx → EReal) shapeCasts_S2048_S1x2048 := by
  dsimp only [Gen.V, Gen.hostOps0]
  after_results
  rfl

/-- The bias block at point `t` is entries 256·t … 256·t + 255 of the bias vector: its entry (0, q) is the
    vector's entry 256·t + q. A reshape keeps row-major positions; position (0, j) of a one-row array is j. -/
theorem bias_block_apply (c : Dev nD) (t : Fin cfg0.N) (y : S1x256.Idx) (k : S2048.Idx)
    (h : (k 0).val = 256 * t.val + (y 1).val) :
    (iblk m c 2 t : Vec Ideal S1x256 .f32) y = (m ((c : Thread nD τ).loc main_arg2) : S2048.Idx → EReal) k := by
  obtain ⟨-, -, -, -, e4, e5, -⟩ := block_indices t
  unfold iblk
  rw [View.read_apply]
  show (V m c main_v0 : S1x2048.Idx → EReal) (((cfg0.win 2).blk t).view.emb y) = m ((c : Thread nD τ).loc main_arg2) k
  rw [bias_as_row]
  refine shapeCast_apply _ _ _ k ?_
  rw [Shape.rowMajor_val_one, Shape.rowMajor_val_two]
  show (k 0).val = (win0_2.index t (0 : Fin 2) * 1 + 1 * (y 0).val) * 2048 + (win0_2.index t (1 : Fin 2) * 256 + 1 * (y 1).val)
  have hy0 : (y 0).val < 1 := (y 0).isLt
  omega

/-- ONE POINT'S STORED BLOCK IS A BLOCK OF THE LAYER. Let `a` be all of `x`, `wb` rows 256·n … of `w`, and `bb` entries
    256·n … of `b` as a row. Then what the body stores at (p, q) is the layer of `x`, `w`, `b` at (p, 256·n + q):
    both are (∑ k, x(p,k) · w(256·n + q, k)) + b(256·n + q), term by term. -/
theorem stored_block_eq_linear (x : S512x2048.Idx → EReal) (w : S2048x2048.Idx → EReal) (b : S2048.Idx → EReal)
    (a : Vec Ideal S512x2048 .f32) (wb : Vec Ideal S256x2048 .f32) (bb : Vec Ideal S1x256 .f32) (n : Nat)
    (ha : ∀ (y k : S512x2048.Idx), (k 0).val = (y 0).val → (k 1).val = (y 1).val → a y = x k)
    (hw : ∀ (y : S256x2048.Idx) (k : S2048x2048.Idx), (k 0).val = 256 * n + (y 0).val → (k 1).val = (y 1).val → wb y = w k)
    (hb : ∀ (y : S1x256.Idx) (k : S2048.Idx), (k 0).val = 256 * n + (y 1).val → bb y = b k)
    (j : S512x256.Idx) (i : S512x2048.Idx) (hi0 : (i 0).val = (j 0).val) (hi1 : (i 1).val = 256 * n + (j 1).val) :
    k0_pay1 (F := Ideal) a wb bb j = Cert.Spec.linear x w b i := by
  have hp : (j 0).val < 512 := (j 0).isLt
  have hq : (j 1).val < 256 := (j 1).isLt
  have hj : j = ix2 (⟨(j 0).val, hp⟩ : Fin 512) (⟨(j 1).val, hq⟩ : Fin 256) :=
    funext fun d => match d with | ⟨0, _⟩ => rfl | ⟨1, _⟩ => rfl
  refine (congrArg (k0_pay1 (F := Ideal) a wb bb) hj).trans ?_
  refine (Cert.KernelIdeal.Stored.stored_apply a wb bb ⟨(j 0).val, hp⟩ ⟨(j 1).val, hq⟩).trans ?_
  show _ = (∑ k : Fin 2048, x (ix2 ⟨(i 0).val, (i 0).isLt⟩ k) * w (ix2 ⟨(i 1).val, (i 1).isLt⟩ k)) + b (ix1 ⟨(i 1).val, (i 1).isLt⟩)
  congr 1
  · refine Finset.sum_congr rfl fun k _ => ?_
    congr 1
    · exact ha _ _ hi0 rfl
    · exact hw _ _ hi1 rfl
  · exact hb _ _ hi1

/-- WHAT POINT `t` WRITES BACK is block `t` of the layer of the three arguments: entry (p, q) of the written block
    sits at array position (p, 256·t + q), and the stored value there is the layer's entry at that position. -/
theorem flushed_eq (c : Dev nD) (t : Fin cfg0.N) :
    (dats m 0 c).flushed 3 t = ((cfg0.win 3).blk t).view.read (Elt Ideal)
      (Cert.Spec.linear (m ((c : Thread nD τ).loc main_arg0)) (m ((c : Thread nD τ).loc main_arg1)) (m ((c : Thread nD τ).loc main_arg2))) := by
  rw [Value.flushed3]
  unfold out0_3
  rw [View.canon_unit_zero zero_offsets]
  simp only [View.ld_unit_zero (S := S512x2048) zero_offsets, View.ld_unit_zero (S := S256x2048) zero_offsets,
    View.ld_unit_zero (S := S1x256) zero_offsets]
  obtain ⟨-, -, -, -, -, -, e6, e7⟩ := block_indices t
  funext j
  show k0_pay1 (F := Ideal) (iblk m c 0 t) (iblk m c 1 t) (iblk m c 2 t) j
      = Cert.Spec.linear (m ((c : Thread nD τ).loc main_arg0)) (m ((c : Thread nD τ).loc main_arg1)) (m ((c : Thread nD τ).loc main_arg2))
          (((cfg0.win 3).blk t).view.emb j)
  refine stored_block_eq_linear (m ((c : Thread nD τ).loc main_arg0)) (m ((c : Thread nD τ).loc main_arg1)) (m ((c : Thread nD τ).loc main_arg2))
    (iblk m c 0 t) (iblk m c 1 t) (iblk m c 2 t) t.val
    (fun y k => activations_block_apply m c t y k) (fun y k => weight_rows_block_apply m c t y k) (fun y k => bias_block_apply m c t y k)
    j (((cfg0.win 3).blk t).view.emb j) ?_ ?_
  · show win0_3.index t (0 : Fin 2) * 512 + 1 * (j 0).val = (j 0).val
    omega
  · show win0_3.index t (1 : Fin 2) * 256 + 1 * (j 1).val = 256 * t.val + (j 1).val
    omega

/-- An index of the output array is in point `t`'s block iff each coordinate is in the block's range on its axis. -/
theorem mem_blk (t : Fin cfg0.N) (i : S512x2048.Idx) :
    i ∈ ((cfg0.win 3).blk t).view.set ↔ ∀ a : Fin 2, win0_3.index t a * S512x256.size a ≤ (i a).val ∧ (i a).val < win0_3.index t a * S512x256.size a + S512x256.size a := by
  show i ∈ ((View.whole main_v1).slice (win0_3.rect t)).set ↔ _
  rw [View.set_slice_whole, Rect.mem_set_unit]
  exact Iff.rfl

/-- THE BLOCKS TILE THE ARRAY: the entry at row p, column q is in the block of point q / 256, whose columns are
    256·(q / 256) … 256·(q / 256) + 255 and whose rows are all 512; and q / 256 < 8 because q < 2048. -/
theorem cover (i : S512x2048.Idx) :
    ∃ t : Fin cfg0.N, (cfg0.win 3).flush t = true ∧ i ∈ ((cfg0.win 3).blk t).view.set := by
  have hi0 : (i 0).val < 512 := (i 0).isLt
  have hi1 : (i 1).val < 2048 := (i 1).isLt
  have hN : cfg0.N = 8 := N_0
  have ht : (i 1).val / 256 < cfg0.N := by rw [hN]; omega
  obtain ⟨-, -, -, -, -, -, e6, e7⟩ := block_indices ⟨(i 1).val / 256, ht⟩
  refine ⟨⟨(i 1).val / 256, ht⟩, flush0_3 _, ?_⟩
  rw [mem_blk]
  intro a
  match a with
  | ⟨0, _⟩ =>
    show win0_3.index ⟨(i 1).val / 256, ht⟩ (0 : Fin 2) * 512 ≤ (i 0).val ∧ (i 0).val < win0_3.index ⟨(i 1).val / 256, ht⟩ (0 : Fin 2) * 512 + 512
    rw [e6]; omega
  | ⟨1, _⟩ =>
    show win0_3.index ⟨(i 1).val / 256, ht⟩ (1 : Fin 2) * 256 ≤ (i 1).val ∧ (i 1).val < win0_3.index ⟨(i 1).val / 256, ht⟩ (1 : Fin 2) * 256 + 256
    rw [e7]
    show (i 1).val / 256 * 256 ≤ (i 1).val ∧ (i 1).val < (i 1).val / 256 * 256 + 256
    omega

/-- THE OUTPUT ARRAY after the run is the linear layer of the three argument arrays as launched: every point writes
    its block of the layer, and the blocks cover the array. -/
theorem final (c : Dev nD) : (dats m 0 c).arrAt 3 cfg0.N
    = Cert.Spec.linear (m ((c : Thread nD τ).loc main_arg0)) (m ((c : Thread nD τ).loc main_arg1)) (m ((c : Thread nD τ).loc main_arg2)) :=
  (dats m 0 c).arrAt_eq_of_cover 3 _ (fun t _ => flushed_eq m c t) cover

/-- The run, read: the output array at the layer of the arguments, the arguments unchanged. -/
theorem run : θ_run defs (onTc (τ := τ) (main (F := Ideal))) ⟨m, fun _ => 0, ρ⟩ fun r => ∀ c : Dev nD,
      r.2.mem ((c : Thread nD τ).loc main_v1)
        = Cert.Spec.linear (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Array

end
-- ==== Proof.FiniteInputs.lean ====
/-
  Finiteness of the inputs, read back from the precondition.

  A float value is modelled as an extended real, an element of [-∞, +∞]. Such a value is FINITE when it
  is neither -∞ nor +∞, that is, when it is (the image of) a real number. The precondition computes, for
  each of the three input arrays, the conjunction over all entries of the comparison |x| < +∞, where
  |x| = max x (-x), and states that the conjunction of the three results is true.

  The argument, from the outside in:
    • a conjunction of two bits is 1 exactly when both bits are 1, so each array's conjunction is 1;
    • a conjunction over all entries that is 1 has a 1 at every entry, so |x i| < +∞ at every index i;
    • the pattern 0x7F800000 (sign 0, exponent all ones, fraction 0) denotes +∞, the top element;
    • max x (-x) < ⊤ fails at x = ⊤ (the maximum is ⊤) and at x = ⊥ (then -x = ⊤), so x is a real.
-/
import proofs.«118814_j14525579395745_2_alg».proof.Pre_finite_inputs
import Idealize.ShloMosaic.PureOps.Ideal
import Idealize.ShloMosaic.Lib.ReduceAll
import Idealize.ShloMosaic.Lib.ValueIdx

noncomputable section

namespace Cert.FiniteInputs

open Idealize.ShloMosaic
open Cert.Pre_finite_inputs

/-- The scalar shape has exactly one index: two indices are functions out of the empty set of axes. -/
instance : Subsingleton S_.Idx := ⟨fun a b => funext fun d => d.elim0⟩

/-- The single-precision pattern with sign 0, all-ones exponent and zero fraction denotes +∞. -/
theorem inf_bits : Ideal.ofBits .f32 0x7F800000#32 = (⊤ : EReal) := by
  simp [Ideal.ofBits, Ideal.ieee]

/-- An extended real whose absolute value max x (-x) lies strictly below +∞ is a real number:
    at x = +∞ the maximum is +∞, and at x = -∞ its negation is +∞, so both infinities are excluded. -/
theorem real_of_abs_lt_top (x : EReal) (h : max x (-x) < ⊤) : ∃ r : ℝ, x = (r : EReal) := by
  induction x using EReal.rec with
  | bot => simp at h
  | coe r => exact ⟨r, rfl⟩
  | top => simp at h

/-- One entry: if the comparison |x| < +∞ answers 1, then x is a real number. The comparison's bit is the
    truth value of the strict inequality on the linear order of the extended reals. -/
theorem real_of_cmp (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [inf_bits] at h'
  unfold Ideal.cmp at h'
  by_cases hlt : max (x : EReal) (-(x : EReal)) < ⊤
  · exact real_of_abs_lt_top x hlt
  · simp [hlt] at h'

/-- One array, of any shape: if the conjunction over ALL entries of the comparisons |x i| < +∞ (against the
    constant +∞ broadcast to the array's shape) is 1, then every entry is a real number. A conjunction that
    is 1 met only 1s, and the broadcast of a scalar reads that scalar at every index. -/
theorem entries_real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ValueIdx.ix0 = 1#1) :
    ∀ i, ∃ r : ℝ, x i = (r : EReal) := by
  intro i
  have hi := Host.reduce_andi_all _ _ hr hu ValueIdx.ix0 e i
  exact real_of_cmp (x i) hi

/-- The precondition gives: every entry of each of the three input arrays is a real number. The
    precondition's result is the conjunction of the three arrays' all-entries conjunctions; it is 1, so
    each of the three is 1, and the lemma above reads each one entrywise. -/
theorem entries_real [Facts]
    (x : FVec Ideal S512x2048 .f32) (w : FVec Ideal S2048x2048 .f32) (b : FVec Ideal S2048 .f32)
    (h : fn (F := Ideal) x w b = fun _ => 1#1) :
    (∀ i, ∃ r : ℝ, x i = (r : EReal)) ∧ (∀ i, ∃ r : ℝ, w i = (r : EReal)) ∧ (∀ i, ∃ r : ℝ, b i = (r : EReal)) := by
  have h0 := congrFun h ValueIdx.ix0
  dsimp only [fn] at h0
  obtain ⟨hxw, hb⟩ := IntOp.andi_eq_one.1 h0
  obtain ⟨hx, hw⟩ := IntOp.andi_eq_one.1 hxw
  exact ⟨entries_real_of_all x _ _ _ hx, entries_real_of_all w _ _ _ hw, entries_real_of_all b _ _ _ hb⟩

end Cert.FiniteInputs

end
-- ==== Proof.lean ====
/-
  A linear layer on the matrix unit against a conductance model of the same layer.

  The kernel computes `out(p,q) = (∑ k < 2048, x(p,k) · w(q,k)) + b(q)`: eight grid points, each multiplying the whole
  activation array by a block of 256 rows of the weight matrix (contracting the second axis of both) and adding the
  matching block of the bias row, which a host reshape has laid out as a 1 × 2048 array; point `t` writes columns
  `256·t … 256·t + 255` of the result, and the eight blocks tile it.

  The reference appends a column of ones to the activations and stacks the bias under the transposed weights, maps
  every entry `e = S · wb` (with `S` a positive constant over the largest `|wb|`) to two conductances
  `G + max(e,0)` and `G − min(e,0)`, drives both with half the inputs, subtracts the two currents and divides by
  `S/2`. Since `max(e,0) + min(e,0) = e`, the offset `G` and the scale cancel and what is left is the contraction of
  the extended input with the stacked weights — the same linear layer. On the extended reals the cancellation
  needs every input to be finite, which is the precondition; when every weight and bias entry is zero the scale is
  `+∞`, both currents are the same real, and both programs return zero.

  The three frames are the programs' runs with the results dropped; nothing was rewritten between the kernel and
  its idealization; the algebraic claim sets the kernel's result array (the linear layer, block by block) beside
  the reference's run (the linear layer, by the cancellation).
-/
import proofs.«118814_j14525579395745_2_alg».proof.Defs
import proofs.«118814_j14525579395745_2_alg».proof.Proof.Gen.Kernel
import proofs.«118814_j14525579395745_2_alg».proof.Proof.Gen.Kernel.Skeleton
import proofs.«118814_j14525579395745_2_alg».proof.Proof.Gen.Kernel.Launch
import proofs.«118814_j14525579395745_2_alg».proof.Proof.Gen.Kernel.Points
import proofs.«118814_j14525579395745_2_alg».proof.Proof.Gen.Kernel.Frame
import proofs.«118814_j14525579395745_2_alg».proof.Proof.Gen.KernelIdeal
import proofs.«118814_j14525579395745_2_alg».proof.Proof.Gen.KernelIdeal.Skeleton
import proofs.«118814_j14525579395745_2_alg».proof.Proof.Gen.KernelIdeal.Launch
import proofs.«118814_j14525579395745_2_alg».proof.Proof.Gen.KernelIdeal.Points
import proofs.«118814_j14525579395745_2_alg».proof.Proof.Gen.KernelIdeal.Frame
import proofs.«118814_j14525579395745_2_alg».proof.Proof.Gen.ReferenceIdeal
import proofs.«118814_j14525579395745_2_alg».proof.Proof.Gen.Pre_finite_inputs
import proofs.«118814_j14525579395745_2_alg».proof.Proof.Gen.KernelIdeal.Value
import proofs.«118814_j14525579395745_2_alg».proof.Proof.RefRun
import proofs.«118814_j14525579395745_2_alg».proof.Proof.RefRead
import proofs.«118814_j14525579395745_2_alg».proof.Proof.RefLayer
import proofs.«118814_j14525579395745_2_alg».proof.Proof.KernelArray
import proofs.«118814_j14525579395745_2_alg».proof.Proof.FiniteInputs
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- No operation of the kernel was rewritten for the extended reals. -/
theorem preserves : Cert.preserves_Kernel_KernelIdeal := trivial

/-- From memories agreeing on finite inputs the kernel's result array is the linear layer of them, block by block,
    and the reference's is the linear layer too, by the cancellation of its conductance model. -/
theorem algebraic : Cert.algebraic_KernelIdeal_ReferenceIdeal := by
  intro m ρ m' ρ' hpre hagree
  refine ⟨_, Cert.KernelIdeal.Array.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2⟩ := Cert.FiniteInputs.entries_real _ _ _ (hpre c)
  rw [Cert.ReferenceIdeal.ReadP.val_main_v25_eq, (hagree c).1, (hagree c).2.1, (hagree c).2.2]
  exact Cert.ReferenceIdeal.Layer.result_eq _ _ _ h0 h1 h2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
